-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel

variable [Facts]

def fn {F : FTy → Type} [FloatOps F] (main_arg0 : FVec F S16x4096x1024 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  main_v3
-- ==== Kernel.lean ====
abbrev S16x4096x1024 : Shape := ⟨3, ![16, 4096, 1024]⟩
abbrev S65536x1024 : Shape := ⟨2, ![65536, 1024]⟩
abbrev S2048x1024 : Shape := ⟨2, ![2048, 1024]⟩

abbrev nBuf : Space → Nat
  | .hbm => 4
  | .vmem => 4
  | .smem => 0
  | _ => 0

abbrev bufTy : (tb : Table) → Fin (tcTables nBuf tb) → BufTy
  | .hbm, ⟨0, _⟩ => ⟨S16x4096x1024, .f32⟩
  | .hbm, ⟨1, _⟩ => ⟨S65536x1024, .f32⟩
  | .hbm, ⟨2, _⟩ => ⟨S65536x1024, .f32⟩
  | .hbm, ⟨3, _⟩ => ⟨S16x4096x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x4096x1024_S65536x1024 : S16x4096x1024.ShapeCasts S65536x1024
  shapeCasts_S65536x1024_S16x4096x1024 : S65536x1024.ShapeCasts S16x4096x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S65536x1024.size a
  hwx0_1 : ∀ i : grid0.Coords, EltTy.bits .f32 = 32 ∨ (Rect.block (s := S65536x1024) S2048x1024.size (cc0_transform_1 i) (hinb0_1 i)).WholeWords (EltTy.packing .f32)

variable [Facts₀]

abbrev win0_0 : Pipeline.Window sig grid0 :=
  Pipeline.Window.ofSpec (Memref.whole main_call0_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S2048x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S16x4096x1024 : Shape := ⟨3, ![16, 4096, 1024]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S_, .f32⟩
  | .hbm, ⟨2, _⟩ => ⟨S16x4096x1024, .f32⟩
  | .hbm, ⟨3, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  bcast_S_S16x4096x1024 : S_.BroadcastsInDim S16x4096x1024 (![] : Fin 0 → Fin S16x4096x1024.rank)

variable [Facts₀]

class Facts : Prop extends Facts₀ where

variable [Facts]
-- ==== Proof.Scale.lean ====
/-
  The function both programs compute: every entry of an array multiplied by one fixed scalar, the number the
  f32 word `0xBDCCCCCD` denotes (the single-precision neighbour of -1/10). The word is never evaluated: both
  programs carry the same word, so it stays a symbol.

  Three facts about this function, none of which mentions a program:
  * the kernel body's term — the loaded block, recast to its own shape, times the splat of the scalar — is the
    function applied to the block;
  * re-laying an array in another shape commutes with it, since it acts entry by entry and a re-laying only
    renames the entries;
  * hence re-laying an array, scaling, and re-laying back is just scaling.
  They hold for any reading of the float operations, so they are stated for an arbitrary one.
-/
import Idealize.ShloMosaic.PureOps.Ideal
import Idealize.ShloMosaic.Lib.Pipeline.Value

noncomputable section

namespace Cert.Scale

open Idealize.ShloMosaic

variable {F : FTy → Type} [FloatOps F]

/-- The scalar every entry is multiplied by: what the f32 word `0xBDCCCCCD` denotes. -/
def step : F .f32 := FloatOps.ofBits .f32 0xBDCCCCCD#32

/-- Every entry of `x` times the scalar, the scalar on the RIGHT (the order in which the kernel multiplies). -/
def scaled {ι : Type} (x : ι → F .f32) : ι → F .f32 := fun i => FloatOps.mulf (x i) (step (F := F))

theorem scaled_apply {ι : Type} (x : ι → F .f32) (i : ι) : scaled x i = FloatOps.mulf (x i) (step (F := F)) := rfl

/-- The kernel body's arithmetic on a loaded block `v`: recasting a block to its own shape changes nothing, and
    multiplying entry by entry with the splat of the scalar is `scaled`. -/
theorem body_term {s : Shape} (v : s.Idx → F .f32) (h : s.ShapeCasts s) :
    mulf (shapeCast s v h) (broadcast s (Scalar.ofBits .f32 0xBDCCCCCD#32)) = scaled v := by
  rw [shapeCast_self]
  rfl

/-- Re-laying an array in another shape commutes with scaling: entry `j` of either side is the entry of `x` with
    `j`'s row-major position, times the scalar. -/
theorem shapeCast_scaled {s t : Shape} (x : s.Idx → F .f32) (h : s.ShapeCasts t) :
    shapeCast t (scaled x) h = scaled (shapeCast t x h) := rfl

/-- Re-lay, scale, re-lay back: the two re-layings cancel, leaving the scaling of the original array. -/
theorem relay_scaled_relay {s t : Shape} (x : s.Idx → F .f32) (h : s.ShapeCasts t) (h' : t.ShapeCasts s) :
    shapeCast s (scaled (shapeCast t x h)) h' = scaled x := by
  rw [shapeCast_scaled, shapeCast_shapeCast]

end Cert.Scale

end
-- ==== Proof.KernelBlocks.lean ====
/-
  From blocks to the array. The kernel's region walks 32 grid points; at point `t` it fetches rows
  `2048 t … 2048 t + 2047` (all 1024 columns) of its operand — the input re-laid as a 65536 × 1024 matrix — scales
  them, and writes them back to the same rows of the result matrix. Because the operand's and the result's blocks sit
  at the same rows, what point `t` writes back is block `t` of ONE matrix: the scaling of the whole operand. The 32
  blocks tile the 65536 rows (row `r` lies in block `r / 2048`), so after the region the result matrix IS the scaling
  of the operand, whatever it held before.
-/
import proofs.«181834_j61933428412507_2_alg».proof.Proof.Gen.KernelIdeal.Frame
import proofs.«181834_j61933428412507_2_alg».proof.Proof.Scale
import Idealize.ShloMosaic.Lib.Pipeline.Value

noncomputable section

namespace Cert.KernelIdeal.Blocks

open Cert.KernelIdeal Cert.KernelIdeal.Gen Idealize.ShloMosaic Idealize.ShloMosaic.TcCoe Idealize.SL.Sem Cert.Scale
open Idealize.ShloMosaic.Pipeline (Dat)

variable {F : FTy → Type} [FloatOps F]
variable (m : (ℓ : Loc nD τ sig) → Buf (Elt F) ℓ) (ρ : Dev nD → PrngReg)

/-- The body's one load and one store start at the block's corner. -/
theorem corner : (![0, 0] : Fin 2 → Nat) = fun _ => 0 := funext fun a => by fin_cases a <;> rfl

/-- The body's arithmetic on the block it loaded is the scaling of that block. -/
theorem payload_scaled (x0 : Vec F S2048x1024 .f32) : k0_pay1 x0 = scaled x0 :=
  body_term x0 _

/-- The operand's block and the result's block at a grid point are the same rows and columns; the row-block number
    runs over 0 … 31 and there is a single column block. -/
theorem same_rows : ∀ t : Fin cfg0.N, win0_0.index t (0 : Fin 2) = win0_1.index t (0 : Fin 2)
    ∧ win0_0.index t (1 : Fin 2) = win0_1.index t (1 : Fin 2)
    ∧ win0_1.index t (0 : Fin 2) ≤ 31
    ∧ win0_1.index t (1 : Fin 2) = 0 :=
  (by decide +kernel : ∀ t : Fin grid0.N, _)

/-- Each of the 32 row blocks is some grid point's. -/
theorem every_row_block : ∀ q : Fin 32, ∃ t : Fin cfg0.N, win0_1.index t = ![q.val, 0] :=
  (by decide +kernel : ∀ q : Fin 32, ∃ t : Fin grid0.N, win0_1.index t = ![q.val, 0])

/-- What grid point `t` writes back is block `t` of the scaling of the whole operand matrix as the region finds it. -/
theorem flushed_scaled (c : Dev nD) (t : Fin cfg0.N) :
    (dats m 0 c).flushed 1 t
      = ((cfg0.win 1).blk t).view.read (Elt F) (scaled (ι := S65536x1024.Idx) (V m c main_call0_v0)) := by
  show (cfg0.win 1).cut (grid0.coords t) ((dats m 0 c).after 1 t) = _
  rw [after0_1]
  unfold out0_1
  rw [View.canon_unit_zero corner]
  simp only [View.ld_unit_zero (S := S2048x1024) corner]
  rw [payload_scaled]
  obtain ⟨e0, e1, e2, e3⟩ := same_rows t
  funext j
  show FloatOps.mulf (V m c main_call0_v0 (((cfg0.win 0).blk t).view.emb j)) step
    = FloatOps.mulf (V m c main_call0_v0 (((cfg0.win 1).blk t).view.emb j)) step
  have h0 : ((cfg0.win 0).blk t).view.emb j = ((cfg0.win 1).blk t).view.emb j := by
    funext a; apply Fin.ext
    match a with
    | ⟨0, _⟩ => show win0_0.index t (0 : Fin 2) * 2048 + 1 * (j 0).val = win0_1.index t (0 : Fin 2) * 2048 + 1 * (j 0).val; omega
    | ⟨1, _⟩ => show win0_0.index t (1 : Fin 2) * 1024 + 1 * (j 1).val = win0_1.index t (1 : Fin 2) * 1024 + 1 * (j 1).val; omega
  rw [h0]

/-- An entry of the result matrix lies in point `t`'s block iff each coordinate lies in the block's range. -/
theorem mem_block (t : Fin cfg0.N) (i : S65536x1024.Idx) :
    i ∈ ((cfg0.win 1).blk t).view.set ↔ ∀ a : Fin 2, win0_1.index t a * S2048x1024.size a ≤ (i a).val
      ∧ (i a).val < win0_1.index t a * S2048x1024.size a + S2048x1024.size a := by
  show i ∈ ((View.whole main_call0_v1).slice (win0_1.rect t)).set ↔ _
  rw [View.set_slice_whole, Rect.mem_set_unit]
  exact Iff.rfl

/-- The blocks tile the result matrix: row `r` is in the block numbered `r / 2048`. -/
theorem covered (i : S65536x1024.Idx) :
    ∃ t : Fin cfg0.N, (cfg0.win 1).flush t = true ∧ i ∈ ((cfg0.win 1).blk t).view.set := by
  have hi0 : (i 0).val < 65536 := (i 0).isLt
  have hi1 : (i 1).val < 1024 := (i 1).isLt
  obtain ⟨t, ht⟩ := every_row_block ⟨(i 0).val / 2048, by omega⟩
  have q0 : win0_1.index t (0 : Fin 2) = (i 0).val / 2048 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 2048 ≤ (i 0).val ∧ (i 0).val < win0_1.index t (0 : Fin 2) * 2048 + 2048; omega
  | ⟨1, _⟩ => show win0_1.index t (1 : Fin 2) * 1024 ≤ (i 1).val ∧ (i 1).val < win0_1.index t (1 : Fin 2) * 1024 + 1024; omega

/-- After the region the result matrix is the scaling of the operand matrix. -/
theorem final_scaled (c : Dev nD) :
    (dats m 0 c).arrAt 1 cfg0.N = scaled (ι := S65536x1024.Idx) (V m c main_call0_v0) :=
  (dats m 0 c).arrAt_eq_of_cover 1 (scaled (ι := S65536x1024.Idx) (V m c main_call0_v0))
    (fun t _ => flushed_scaled m c t) covered

end Cert.KernelIdeal.Blocks

end
-- ==== Proof.KernelWhole.lean ====
/-
  The whole kernel program, read as a value. Around the region the host does two re-layings and one copy:
  * before it, the input `x` of shape 16 × 4096 × 1024 is re-laid as the 65536 × 1024 operand matrix (same row-major
    order), and a copy of that matrix is made for the region to write its result into;
  * after it, the result matrix is re-laid back to 16 × 4096 × 1024.
  The region leaves the result matrix at the scaling of the operand matrix (the blocks-to-array step). Re-laying,
  scaling entry by entry, and re-laying back is scaling the original array, so the program's result is the scaling of
  its input, and the input itself is untouched.
-/
import proofs.«181834_j61933428412507_2_alg».proof.Proof.KernelBlocks
import Idealize.ShloMosaic.Lib.StableHlo.Run

noncomputable section

namespace Cert.KernelIdeal.Whole

open Cert.KernelIdeal Cert.KernelIdeal.Gen Idealize.ShloMosaic Idealize.ShloMosaic.TcCoe Idealize.SL.Sem Cert.Scale
open Idealize.ShloMosaic.StableHlo
open Idealize.ShloMosaic.Pipeline (Dat)

variable {F : FTy → Type} [FloatOps F]
variable (m : (ℓ : Loc nD τ sig) → Buf (Elt F) ℓ) (ρ : Dev nD → PrngReg)

/-- The operand matrix the region finds is the input re-laid in 65536 rows of 1024. -/
theorem operand_relaid (c : Dev nD) :
    (V m c main_call0_v0 : S65536x1024.Idx → F .f32)
      = shapeCast S65536x1024 (m ((c : Thread nD τ).loc main_arg0) : S16x4096x1024.Idx → F .f32)
          shapeCasts_S16x4096x1024_S65536x1024 := by
  show StableHlo.after hostOps0 (fun b => m (c, b)) (Proc.devRef .tc main_call0_v0) = _
  after_results
  rfl

/-- The program's result is the result matrix, as the region leaves it, re-laid back in the input's shape. -/
theorem result_relaid (c : Dev nD) :
    (Pipeline.afterTail₀ cfgs (dats m) 0 (V0 m) [hostOps1] c main_v0 : S16x4096x1024.Idx → F .f32)
      = shapeCast S16x4096x1024 ((dats m 0 c).arrAt 1 cfg0.N : S65536x1024.Idx → F .f32)
          shapeCasts_S65536x1024_S16x4096x1024 := by
  unfold Pipeline.afterTail₀
  show StableHlo.after hostOps1 _ (Proc.devRef .tc main_v0) = _
  after_results
  exact congrArg
    (fun y : S65536x1024.Idx → F .f32 => shapeCast S16x4096x1024 y shapeCasts_S65536x1024_S16x4096x1024)
    (Pipeline.withArrays_arr spec0 launch0.win.arr_inj c (V0 m c) (fun w => (dats m 0 c).arrAt w cfg0.N) 1)

/-- The program's result is the scaling of its input: the operand matrix is the input re-laid, the region scales it,
    and the tail re-lays it back. -/
theorem result_scaled (c : Dev nD) :
    (Pipeline.afterTail₀ cfgs (dats m) 0 (V0 m) [hostOps1] c main_v0 : S16x4096x1024.Idx → F .f32)
      = scaled (m ((c : Thread nD τ).loc main_arg0) : S16x4096x1024.Idx → F .f32) := by
  rw [result_relaid, Blocks.final_scaled, operand_relaid]
  exact relay_scaled_relay _ _ _

/-- Every weakly fair execution of the kernel program terminates with its result at the scaling of the input and
    the input unchanged. -/
theorem run : θ_run defs (onTc (τ := τ) (main (F := F))) ⟨m, fun _ => 0, ρ⟩ fun r => ∀ c : Dev nD,
      r.2.mem ((c : Thread nD τ).loc main_v0)
        = scaled (m ((c : Thread nD τ).loc main_arg0) : S16x4096x1024.Idx → F .f32)
      ∧ r.2.mem ((c : Thread nD τ).loc main_arg0) = m ((c : Thread nD τ).loc main_arg0) :=
  (θ_run defs _ _).mono (fun r h c =>
      ⟨((h c).2 main_v0 (Pipeline.mem_restRefs_of main_v0 (by decide) (by decide))).trans (result_scaled m c),
       ((h c).2 main_arg0 (Pipeline.mem_restRefs_of main_arg0 (by decide) (by decide))).trans (W_main_arg0 m (dats m) c)⟩)
    (run_main m ρ)

end Cert.KernelIdeal.Whole

end
-- ==== Proof.RefScaled.lean ====
/-
  The reference's result, entry by entry. The reference broadcasts the scalar to the array's shape and multiplies
  with the scalar on the LEFT: entry `i` of its result is `step * x i`. On the extended reals multiplication is
  commutative with no side condition (infinite entries included), so this is `x i * step`, the scaling with the
  scalar on the right that the kernel computes.
-/
import proofs.«181834_j61933428412507_2_alg».proof.Proof.Gen.ReferenceIdeal.Read
import proofs.«181834_j61933428412507_2_alg».proof.Proof.Scale

noncomputable section

namespace Cert.ReferenceIdeal.RefValue

open Cert.ReferenceIdeal Cert.ReferenceIdeal.Gen Cert.ReferenceIdeal.Read Idealize.ShloMosaic Cert.Scale

/-- The reference's last stage is the scaling of its argument: at each index the broadcast reads the one scalar,
    and `step * x i = x i * step` on the extended reals. -/
theorem result_scaled (x : (⟨S16x4096x1024, .f32⟩ : BufTy).Contents (Elt Ideal)) :
    val_main_v1 (F := Ideal) x = scaled (F := Ideal) x := by
  funext i
  rw [val_main_v1_apply, val_main_v0_apply, val_main_cst_apply, scaled_apply]
  exact mul_comm _ _

end Cert.ReferenceIdeal.RefValue

end
-- ==== Proof.lean ====
/-
  The kernel and the reference compute the same array: every entry of the input `x` (16 × 4096 × 1024 floats)
  multiplied by one scalar, the number the f32 word `0xBDCCCCCD` denotes. The kernel re-lays `x` as a 65536 × 1024
  matrix, scales it block by block (32 blocks of 2048 rows, `x · s` entry by entry), and re-lays the result back; the
  reference multiplies the broadcast scalar into `x` from the left (`s · x`). Read on the extended reals:
  * re-laying only renames entries, so re-lay, scale, re-lay back is scaling (Proof/Scale.lean);
  * the blocks tile the matrix, so the region's result is the scaling of its whole operand (Proof/KernelBlocks.lean),
    and with the host's re-layings around it the program's result is the scaling of `x` (Proof/KernelWhole.lean);
  * the reference's `s · x i` is `x i · s` because multiplication of extended reals is commutative — at the
    infinities too, so the finiteness of the input is never used (Proof/RefScaled.lean).
  Both programs carry the same word for the scalar, so its value never enters. The kernel read on the extended reals is
  the kernel's own text, no operation replaced, so there is nothing to show for that step; and the three programs
  terminate without fault leaving `x` unchanged: the two kernels by their generated frames, the reference by its
  generated run.
-/
import proofs.«181834_j61933428412507_2_alg».proof.Defs
import proofs.«181834_j61933428412507_2_alg».proof.Proof.Gen.Kernel
import proofs.«181834_j61933428412507_2_alg».proof.Proof.Gen.Kernel.Skeleton
import proofs.«181834_j61933428412507_2_alg».proof.Proof.Gen.Kernel.Launch
import proofs.«181834_j61933428412507_2_alg».proof.Proof.Gen.Kernel.Points
import proofs.«181834_j61933428412507_2_alg».proof.Proof.Gen.Kernel.Frame
import proofs.«181834_j61933428412507_2_alg».proof.Proof.Gen.KernelIdeal
import proofs.«181834_j61933428412507_2_alg».proof.Proof.Gen.KernelIdeal.Skeleton
import proofs.«181834_j61933428412507_2_alg».proof.Proof.Gen.KernelIdeal.Launch
import proofs.«181834_j61933428412507_2_alg».proof.Proof.Gen.KernelIdeal.Points
import proofs.«181834_j61933428412507_2_alg».proof.Proof.Gen.KernelIdeal.Frame
import proofs.«181834_j61933428412507_2_alg».proof.Proof.Gen.ReferenceIdeal
import proofs.«181834_j61933428412507_2_alg».proof.Proof.Gen.Pre_finite_inputs
import proofs.«181834_j61933428412507_2_alg».proof.Proof.Gen.ReferenceIdeal.Run
import proofs.«181834_j61933428412507_2_alg».proof.Proof.Gen.ReferenceIdeal.Read
import proofs.«181834_j61933428412507_2_alg».proof.Proof.KernelWhole
import proofs.«181834_j61933428412507_2_alg».proof.Proof.RefScaled
import Idealize.ShloMosaic.Adequacy
import Idealize.ShloMosaic.Init

noncomputable section

namespace Cert.Proof

open Idealize.ShloMosaic Idealize.SL.Sem

/-- The kernel as printed runs to the end without fault and leaves its input as it was. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is three host operations in a row: its run ends, and the input is no operation's result. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was replaced when it was read on the extended reals: the statement is `True`. -/
theorem preserves : Cert.preserves_Kernel_KernelIdeal := trivial

/-- From memories that agree on the input both programs end with the scaling of the input: the kernel by its run read
    as a value, the reference because `s · x i = x i · s` on the extended reals. -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [hagree c]
  exact (Cert.ReferenceIdeal.Read.val_main_v1_eq _).trans (Cert.ReferenceIdeal.RefValue.result_scaled _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
